-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S8192x8192 : Shape := ⟨2, ![8192, 8192]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S16384x8192 .f32) (main_arg1 : FVec F S8192x8192 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S16384x8192 : Shape := ⟨2, ![16384, 8192]⟩
abbrev S8192x8192 : Shape := ⟨2, ![8192, 8192]⟩
abbrev S16384x16 : Shape := ⟨2, ![16384, 16]⟩
abbrev S512x256 : Shape := ⟨2, ![512, 256]⟩
abbrev S256x8192 : Shape := ⟨2, ![256, 8192]⟩
abbrev S512x16 : Shape := ⟨2, ![512, 16]⟩
abbrev S512x8192 : Shape := ⟨2, ![512, 8192]⟩
abbrev S256x2048 : Shape := ⟨2, ![256, 2048]⟩
abbrev S512x2048 : Shape := ⟨2, ![512, 2048]⟩
abbrev S512x16x512 : Shape := ⟨3, ![512, 16, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x8192, .f32⟩
  | .hbm, ⟨1, _⟩ => ⟨S8192x8192, .f32⟩
  | .hbm, ⟨2, _⟩ => ⟨S16384x8192, .bf16⟩
  | .hbm, ⟨3, _⟩ => ⟨S8192x8192, .bf16⟩
  | .hbm, ⟨4, _⟩ => ⟨S16384x16, .f32⟩
  | .local _ .vmem, ⟨0, _⟩ => ⟨S512x256, .bf16⟩
  | .local _ .vmem, ⟨1, _⟩ => ⟨S512x256, .bf16⟩
  | .local _ .vmem, ⟨2, _⟩ => ⟨S256x8192, .bf16⟩
  | .local _ .vmem, ⟨3, _⟩ => ⟨S256x8192, .bf16⟩
  | .local _ .vmem, ⟨4, _⟩ => ⟨S512x16, .f32⟩
  | .local _ .vmem, ⟨5, _⟩ => ⟨S512x16, .f32⟩
  | .local _ .vmem, ⟨6, _⟩ => ⟨S512x8192, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 32], ![false, false]⟩

def k0_mult1 : BitVec 32 :=
  let c0_i32_2 : BitVec 32 := 0#32
  let c2048_i32 : BitVec 32 := 2048#32
  let v5 : BitVec 32 := Scalar.muli c0_i32_2 c2048_i32
  v5
def k0_off1 (c0_i32_2 : BitVec 32) : Fin 2 → Nat :=
  let c0_3 : Index := 0#32
  let c2048_i32 : BitVec 32 := 2048#32
  let v5 : BitVec 32 := Scalar.muli c0_i32_2 c2048_i32
  let v6 : BitVec 32 := v5
  let v7 : Index := Scalar.indexCast v6
  ![0, v7.toNat]
def k0_off2 (c0_i32_2 : BitVec 32) : Fin 2 → Nat :=
  let c0_4 : Index := 0#32
  let c2048_i32 : BitVec 32 := 2048#32
  let v5 : BitVec 32 := Scalar.muli c0_i32_2 c2048_i32
  let v6 : BitVec 32 := v5
  let v10 : Index := Scalar.indexCast v6
  ![0, v10.toNat]
def k0_mult2 : BitVec 32 :=
  let c1_i32 : BitVec 32 := 1#32
  let c2048_i32_6 : BitVec 32 := 2048#32
  let v18 : BitVec 32 := Scalar.muli c1_i32 c2048_i32_6
  v18
def k0_mult3 : BitVec 32 :=
  let c2_i32 : BitVec 32 := 2#32
  let c2048_i32_11 : BitVec 32 := 2048#32
  let v31 : BitVec 32 := Scalar.muli c2_i32 c2048_i32_11
  v31
def k0_mult4 : BitVec 32 :=
  let c3_i32 : BitVec 32 := 3#32
  let c2048_i32_16 : BitVec 32 := 2048#32
  let v44 : BitVec 32 := Scalar.muli c3_i32 c2048_i32_16
  v44
def k0_cond2 (i : grid0.Coords) : BitVec 1 :=
  let arg1 : BitVec 32 := BitVec.ofNat 32 (i 1).val
  let c31_i32 : BitVec 32 := 31#32
  let v57 : BitVec 1 := Scalar.cmpi .eq arg1 c31_i32
  let v58 : BitVec 32 := Scalar.extui v57
  let c0_i32_21 : BitVec 32 := 0#32
  let v59 : BitVec 1 := Scalar.cmpi .ne v58 c0_i32_21
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S256x2048 : 0 < S256x2048.numel
  shapeCasts_S256x2048_S256x2048 : S256x2048.ShapeCasts S256x2048
  h_S512x2048 : 0 < S512x2048.numel
  shapeCasts_S512x2048_S512x2048 : S512x2048.ShapeCasts S512x2048
  shapeCasts_S512x8192_S512x16x512 : S512x8192.ShapeCasts S512x16x512
  reduces_S512x16x512_S512x16 : S512x16x512.Reduces [2] S512x16
  reduces_S512x16_S512 : S512x16.Reduces [1] S512
  shapeCasts_S512_S512x1 : S512.ShapeCasts S512x1
  broadcasts_S512x1_S512x16 : S512x1.Broadcasts S512x16
  inb_S512x16_S512x16_0_0 : ∀ a, (![0, 0] : Fin 2 → Nat) a + S512x16.size a ≤ S512x16.size a
  h_S512x16 : 0 < S512x16.numel
  dot_S512x256_S256x2048_S512x2048_1_0_0_1_n_n_wf : DotDims.WF S512x256 S256x2048 S512x2048 [1] [0] [0] [1] [] []
  hrank0 : 0 < grid0.rank
  k0_mult1_dvd : 2048 ∣ k0_mult1.toNat
  k0_off1_inb : ∀ (r : Fin 4), ∀ a, (k0_off1 (BitVec.ofNat 32 r.val)) a + S256x2048.size a ≤ S256x8192.size a
  k0_off2_inb : ∀ (r : Fin 4), ∀ a, (k0_off2 (BitVec.ofNat 32 r.val)) a + S512x2048.size a ≤ S512x8192.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x8192.size a
  hwx0_0 : ∀ i : grid0.Coords, EltTy.bits .bf16 = 32 ∨ (Rect.block (s := S16384x8192) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .bf16 = 32 ∨ (Rect.block (s := S8192x8192) S256x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S16384x16.size a
  hwx0_2 : ∀ i : grid0.Coords, EltTy.bits .f32 = 32 ∨ (Rect.block (s := S16384x16) S512x16.size (cc0_transform_2 i) (hinb0_2 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x8192 : Shape := ⟨2, ![16384, 8192]⟩
abbrev S8192x8192 : Shape := ⟨2, ![8192, 8192]⟩
abbrev S16384x16x512 : Shape := ⟨3, ![16384, 16, 512]⟩
abbrev S_ : Shape := ⟨0, ![]⟩
abbrev S16384x16 : Shape := ⟨2, ![16384, 16]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S8192x8192, .f32⟩
  | .hbm, ⟨2, _⟩ => ⟨S16384x8192, .f32⟩
  | .hbm, ⟨3, _⟩ => ⟨S16384x16x512, .f32⟩
  | .hbm, ⟨4, _⟩ => ⟨S16384x16x512, .f32⟩
  | .hbm, ⟨5, _⟩ => ⟨S_, .f32⟩
  | .hbm, ⟨6, _⟩ => ⟨S16384x16, .f32⟩
  | .hbm, ⟨7, _⟩ => ⟨S_, .f32⟩
  | .hbm, ⟨8, _⟩ => ⟨S16384x16, .f32⟩
  | .hbm, ⟨9, _⟩ => ⟨S16384x16, .f32⟩
  | .hbm, ⟨10, _⟩ => ⟨S_, .f32⟩
  | .hbm, ⟨11, _⟩ => ⟨S16384x16, .f32⟩
  | .hbm, ⟨12, _⟩ => ⟨S16384x16, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16, .f32⟩
  | .hbm, ⟨17, _⟩ => ⟨S16384x16, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  shapeCasts_S16384x8192_S16384x16x512 : S16384x8192.ShapeCasts S16384x16x512
  reducesTo_S16384x16x512_S16384x16_d2 : S16384x16x512.ReducesTo [2] S16384x16
  h_S_ : 0 < S_.numel
  bcast_S_S16384x16 : S_.BroadcastsInDim S16384x16 (![] : Fin 0 → Fin S16384x16.rank)
  reducesTo_S16384x16_S16384_d1 : S16384x16.ReducesTo [1] S16384
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  dot_S16384x8192_S8192x8192_S16384x8192_1_0_0_1_n_n_wf : DotDims.WF S16384x8192 S8192x8192 S16384x8192 [1] [0] [0] [1] [] []

variable [Facts₀]

def dot_S16384x8192_S8192x8192_S16384x8192_1_0_0_1_n_n : DotDims S16384x8192 S8192x8192 S16384x8192 where
  lhsContracting := [1]
  rhsContracting := [0]
  lhsNonContracting := [0]
  rhsNonContracting := [1]
  lhsBatch := []
  rhsBatch := []
  wf := dot_S16384x8192_S8192x8192_S16384x8192_1_0_0_1_n_n_wf

class Facts : Prop extends Facts₀ where

variable [Facts]
-- ==== Proof.AccumStep.lean ====
/-
  One grid point's update of the carried accumulator, read at an entry.

  The accumulator is a 512 × 8192 block. A grid point holds a 512 × 256 tile `x0` of `z` and a 256 × 8192 tile `x1`
  of `D`, and updates the accumulator in four column chunks of 2048: chunk `j` becomes its old contents plus
  `x0 · x1[:, 2048 j : 2048 j + 2048]`. Entry `(r, n)` therefore becomes `acc[r, n] + ∑ kk, x0[r, kk] · x1[kk, n]`,
  whichever chunk `n` lies in: the four stores are the four column blocks of ONE function of the index (`stepOf`).
  At a point that first zeroes the accumulator the old contents are the zero block.
-/
import proofs.«161449_j18296560681209_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Accum

open Cert.KernelIdeal Cert.KernelIdeal.Gen
open Idealize.ShloMosaic Idealize.ShloMosaic.TcCoe Idealize.ShloMosaic.ValueIdx Idealize.SL.Sem

/-- The dimension numbers of the chunk product: rows × contraction times contraction × columns. -/
abbrev dotChunk : DotDims S512x256 S256x2048 S512x2048 := dot_S512x256_S256x2048_S512x2048_1_0_0_1_n_n

theorem lhs_row (j : S512x2048.Idx) (k : dotChunk.contr.Idx) : (dotChunk.lhsIdx j k 0).val = (j 0).val := by
  unfold DotDims.lhsIdx
  rw [dif_neg (show ¬(0 : Fin S512x256.rank) ∈ dotChunk.lhsBatch by decide),
    dif_pos (show (0 : Fin S512x256.rank) ∈ dotChunk.lhsNonContracting by decide)]
  rfl
theorem lhs_contr (j : S512x2048.Idx) (k : dotChunk.contr.Idx) : (dotChunk.lhsIdx j k 1).val = (k ⟨0, by decide⟩).val :=
  dotChunk.lhsIdx_val_of_single rfl j k
theorem rhs_contr (j : S512x2048.Idx) (k : dotChunk.contr.Idx) : (dotChunk.rhsIdx j k 0).val = (k ⟨0, by decide⟩).val :=
  dotChunk.rhsIdx_val_of_single rfl j k
theorem rhs_col (j : S512x2048.Idx) (k : dotChunk.contr.Idx) : (dotChunk.rhsIdx j k 1).val = (j 1).val := by
  unfold DotDims.rhsIdx
  rw [dif_neg (show ¬(1 : Fin S256x2048.rank) ∈ dotChunk.rhsBatch by decide),
    dif_pos (show (1 : Fin S256x2048.rank) ∈ dotChunk.rhsNonContracting by decide)]
  rfl

/-- One chunk's update at entry `(r, q)` of the chunk: the old entry plus the 256 products of row `r` of the
    `z` tile with column `q` of the chunk of the `D` tile (the matrix unit starts from a zero accumulator). -/
theorem chunk_apply (x0 : FVec Ideal S512x256 .bf16) (w : FVec Ideal S256x2048 .bf16) (acc : FVec Ideal S512x2048 .f32)
    (r : Fin 512) (q : Fin 2048) :
    addf acc (matmul dotChunk none x0 w (constant S512x2048 .f32 0x00000000#32)) (ix2 r q)
      = acc (ix2 r q) + ∑ kk : Fin 256, x0 (ix2 r kk) * w (ix2 kk q) := by
  rw [addf_apply]
  simp only [matmul]
  rw [Ideal.matmul_constant_zero_apply, ← Equiv.sum_comp (contrEquiv1 dotChunk 256 rfl rfl).symm]
  refine congrArg (acc (ix2 r q) + ·) (Finset.sum_congr rfl fun k _ => ?_)
  have hk := contrEquiv1_symm_val dotChunk 256 rfl rfl k
  have el : dotChunk.lhsIdx (ix2 r q) ((contrEquiv1 dotChunk 256 rfl rfl).symm k) = ix2 r k := funext fun a => Fin.ext (by
    match a with
    | ⟨0, _⟩ => exact lhs_row _ _
    | ⟨1, _⟩ => exact (lhs_contr _ _).trans hk)
  have er : dotChunk.rhsIdx (ix2 r q) ((contrEquiv1 dotChunk 256 rfl rfl).symm k) = ix2 k q := funext fun a => Fin.ext (by
    match a with
    | ⟨0, _⟩ => exact (rhs_contr _ _).trans hk
    | ⟨1, _⟩ => exact rhs_col _ _)
  rw [el, er]

/-- THE STEP: the accumulator after a point that found it at `xs`, with the `z` tile `x0` and the `D` tile `x1`. -/
def stepOf (x0 : FVec Ideal S512x256 .bf16) (x1 : FVec Ideal S256x8192 .bf16) (xs : FVec Ideal S512x8192 .f32) :
    FVec Ideal S512x8192 .f32 :=
  fun y => xs y + ∑ kk : Fin 256, x0 (ix2 (⟨(y 0).val, idx2_lt0 y⟩ : Fin 512) kk) * x1 (ix2 kk (⟨(y 1).val, idx2_lt1 y⟩ : Fin 8192))

/-- A chunk's update is the step's column block at the chunk's offset `o`: for a chunk `w` of the `D` tile and a
    chunk `acc` of the old accumulator, both read at columns `o + q`. -/
theorem chunk_eq_step (x0 : FVec Ideal S512x256 .bf16) (x1 : FVec Ideal S256x8192 .bf16) (xs : FVec Ideal S512x8192 .f32)
    (o : ℕ) (ho : o + 2048 ≤ 8192) (w : FVec Ideal S256x2048 .bf16) (acc : FVec Ideal S512x2048 .f32)
    (hw : ∀ (kk : Fin 256) (q : Fin 2048), w (ix2 kk q) = x1 (ix2 kk (⟨o + q.val, by omega⟩ : Fin 8192)))
    (hacc : ∀ (r : Fin 512) (q : Fin 2048), acc (ix2 r q) = xs (ix2 r (⟨o + q.val, by omega⟩ : Fin 8192)))
    (r : Fin 512) (q : Fin 2048) :
    addf acc (matmul dotChunk none x0 w (constant S512x2048 .f32 0x00000000#32)) (ix2 r q)
      = stepOf x0 x1 xs (ix2 r (⟨o + q.val, by omega⟩ : Fin 8192)) := by
  rw [chunk_apply, hacc]
  unfold stepOf
  exact congrArg (xs (ix2 r (⟨o + q.val, by omega⟩ : Fin 8192)) + ·) (Finset.sum_congr rfl fun kk _ => by rw [hw])

end Cert.KernelIdeal.Accum

end
-- ==== Proof.ScratchPieces.lean ====
/-
  What a grid point leaves in the carried accumulator, and in the output block, when it does NOT zero the
  accumulator first: the four column-chunk stores are the four column blocks of the step function of the tiles and
  of the accumulator's previous contents; at the last contraction tile the output block is the epilogue of the
  accumulator the four stores have just left.
-/
import proofs.«161449_j18296560681209_2_alg».proof.Proof.AccumStep

set_option maxRecDepth 16384

noncomputable section

namespace Cert.KernelIdeal.Accum

open Cert.KernelIdeal Cert.KernelIdeal.Gen
open Idealize.ShloMosaic Idealize.ShloMosaic.TcCoe Idealize.ShloMosaic.ValueIdx Idealize.SL.Sem

theorem hz2 : (![0, 0] : Fin 2 → Nat) = fun _ => 0 := funext fun a => by fin_cases a <;> rfl

/-- A column chunk of the `D` tile, read at an entry: the tile at the column moved by the chunk's offset. -/
theorem ld_cols_tile (x1 : FVec Ideal S256x8192 .bf16) (o : ℕ) (ho : o + 2048 ≤ 8192)
    (inb : ∀ a, (![0, o] : Fin 2 → Nat) a + (![256, 2048] : Fin 2 → Nat) a ≤ S256x8192.size a) (kk : Fin 256) (q : Fin 2048) :
    View.ld (Val := Elt Ideal) (e' := .bf16) x1 (Rect.unit (s := S256x8192) ![0, o] ![256, 2048] inb) (ix2 kk q)
      = x1 (ix2 kk (⟨o + q.val, by omega⟩ : Fin 8192)) :=
  congrArg x1 (funext fun a => Fin.ext (by
    match a with
    | ⟨0, _⟩ => show 0 + 1 * kk.val = kk.val; omega
    | ⟨1, _⟩ => show o + 1 * q.val = o + q.val; omega))

/-- A column chunk of the accumulator, read at an entry. -/
theorem ld_cols_acc (xs : FVec Ideal S512x8192 .f32) (o : ℕ) (ho : o + 2048 ≤ 8192)
    (inb : ∀ a, (![0, o] : Fin 2 → Nat) a + (![512, 2048] : Fin 2 → Nat) a ≤ S512x8192.size a) (r : Fin 512) (q : Fin 2048) :
    View.ld (Val := Elt Ideal) (e' := .f32) xs (Rect.unit (s := S512x8192) ![0, o] ![512, 2048] inb) (ix2 r q)
      = xs (ix2 r (⟨o + q.val, by omega⟩ : Fin 8192)) :=
  congrArg xs (funext fun a => Fin.ext (by
    match a with
    | ⟨0, _⟩ => show 0 + 1 * r.val = r.val; omega
    | ⟨1, _⟩ => show o + 1 * q.val = o + q.val; omega))

/-- Entry `(r, q)` of the column block at offset `o` is entry `(r, o + q)` of the accumulator. -/
theorem emb_cols (o : ℕ) (ho : o + 2048 ≤ 8192)
    (inb : ∀ a, (![0, o] : Fin 2 → Nat) a + (![512, 2048] : Fin 2 → Nat) a ≤ S512x8192.size a) (r : Fin 512) (q : Fin 2048) :
    (Rect.unit (s := S512x8192) ![0, o] ![512, 2048] inb).emb (ix2 r q) = ix2 r (⟨o + q.val, by omega⟩ : Fin 8192) :=
  funext fun a => Fin.ext (by
    match a with
    | ⟨0, _⟩ => show 0 + 1 * r.val = r.val; omega
    | ⟨1, _⟩ => show o + 1 * q.val = o + q.val; omega)

/-- The four stored values, whichever of the body's four spellings of one chunk's update they come from, are the step's
    column block: stated once over the chunk of the `D` tile and the chunk of the accumulator that the spelling loads. -/
theorem stored_eq_step (x0 : FVec Ideal S512x256 .bf16) (x1 : FVec Ideal S256x8192 .bf16) (xs : FVec Ideal S512x8192 .f32)
    (o : ℕ) (ho : o + 2048 ≤ 8192)
    (inb1 : ∀ a, (![0, o] : Fin 2 → Nat) a + (![256, 2048] : Fin 2 → Nat) a ≤ S256x8192.size a)
    (inb5 : ∀ a, (![0, o] : Fin 2 → Nat) a + (![512, 2048] : Fin 2 → Nat) a ≤ S512x8192.size a)
    (x : (Rect.unit (s := S512x8192) ![0, o] ![512, 2048] inb5).shape.Idx) :
    addf (View.ld (Val := Elt Ideal) (e' := .f32) xs (Rect.unit (s := S512x8192) ![0, o] ![512, 2048] inb5))
        (matmul (φ₂ := .bf16) dotChunk none x0 (View.ld (Val := Elt Ideal) (e' := .bf16) x1 (Rect.unit (s := S256x8192) ![0, o] ![256, 2048] inb1))
          (constant S512x2048 .f32 0x00000000#32)) x
      = stepOf x0 x1 xs ((Rect.unit (s := S512x8192) ![0, o] ![512, 2048] inb5).emb x) := by
  obtain ⟨r, q, rfl⟩ : ∃ (r : Fin 512) (q : Fin 2048), x = ix2 r q := ⟨x 0, x 1, eq_ix2 x⟩
  rw [emb_cols o ho inb5 r q]
  exact chunk_eq_step x0 x1 xs o ho _ _ (fun kk q => ld_cols_tile x1 o ho inb1 kk q) (fun r q => ld_cols_acc xs o ho inb5 r q) r q

/-- A point in the MIDDLE of a row block's run (neither its first nor its last contraction tile) leaves the step of what
    it found: its four stores are the step's four column blocks. -/
theorem scratch_mid (c : Dev nD) (i : grid0.Coords) (a2 : Memref sig .tc .vmem S512x256 .bf16) (h2 : a2.IsWhole)
    (a3 : Memref sig .tc .vmem S256x8192 .bf16) (h3 : a3.IsWhole) (a4 : Memref sig .tc .vmem S512x16 .f32) (h4 : a4.IsWhole)
    (a5 : Memref sig .tc .vmem S512x8192 .f32) (h5 : a5.IsWhole) (hc0 : ¬cond0_0 i) (hc1 : ¬cond0_1 i)
    (x0 : FVec Ideal S512x256 .bf16) (x1 : FVec Ideal S256x8192 .bf16) (xs0 : FVec Ideal S512x8192 .f32) :
    sout0_B_0 (F := Ideal) c i a2 h2 a3 h3 a4 h4 a5 h5 hc0 hc1 x0 x1 xs0 = stepOf x0 x1 xs0 := by
  funext y
  unfold sout0_B_0
  rw [View.read_writes_junk_eq_canon]
  refine View.canon_apply_of_pieces (stepOf x0 x1 xs0) _ ?_ y (scover0_B_0 (F := Ideal) c i a2 h2 a3 h3 a4 h4 a5 h5 hc0 hc1 x0 x1 xs0 y)
  unfold kernelRun0_B
  dsimp only
  sl_unfold_words
  intro p hp x
  simp only [List.mem_cons, List.mem_singleton, List.not_mem_nil, or_false] at hp
  rcases hp with rfl | rfl | rfl | rfl
  · simp only [View.readAt_eq_ld, h2.read_unread, h3.read_unread, h5.read_unread, View.ld_unit_zero (S := S512x256) hz2]
    unfold k0_pay2 k0_pay5
    simp only [shapeCast_self]
    exact stored_eq_step x0 x1 xs0 6144 (by omega) _ _ x
  · simp only [View.readAt_eq_ld, h2.read_unread, h3.read_unread, h5.read_unread, View.ld_unit_zero (S := S512x256) hz2]
    unfold k0_pay1 k0_pay5 k0_pay8
    simp only [shapeCast_self]
    exact stored_eq_step x0 x1 xs0 4096 (by omega) _ _ x
  · simp only [View.readAt_eq_ld, h2.read_unread, h3.read_unread, h5.read_unread, View.ld_unit_zero (S := S512x256) hz2]
    unfold k0_pay7 k0_pay5
    simp only [shapeCast_self]
    exact stored_eq_step x0 x1 xs0 2048 (by omega) _ _ x
  · simp only [View.readAt_eq_ld, h2.read_unread, h3.read_unread, h5.read_unread, View.ld_unit_zero (S := S512x256) hz2]
    unfold k0_pay6 k0_pay5
    simp only [shapeCast_self]
    exact stored_eq_step x0 x1 xs0 0 (by omega) _ _ x

end Cert.KernelIdeal.Accum

end
-- ==== Proof.ScratchFirst.lean ====
/-
  The FIRST contraction tile of a row block's run: the point stores the zero block over the whole accumulator and
  then updates it chunk by chunk. Each chunk's update reads its old contents back through the stores made so far at
  this point: the chunks updated before it lie in other columns, so what it reads is the zero block's entry.
  The accumulator is left at the step of the zero block.
-/
import proofs.«161449_j18296560681209_2_alg».proof.Proof.ScratchPieces

set_option maxRecDepth 16384

noncomputable section

namespace Cert.KernelIdeal.Accum

open Cert.KernelIdeal Cert.KernelIdeal.Gen
open Idealize.ShloMosaic Idealize.ShloMosaic.TcCoe Idealize.ShloMosaic.ValueIdx Idealize.SL.Sem

/-- A stored piece of the accumulator: a rectangle of it and the values stored there. -/
abbrev AccPiece : Type := View.Piece (Elt Ideal) S512x8192 .f32

/-- After a store into the column block at offset `o`, an entry of that block reads the stored value. -/
theorem canon_cols_hit (o : ℕ) (ho : o + 2048 ≤ 8192)
    (inb : ∀ a, (![0, o] : Fin 2 → Nat) a + (![512, 2048] : Fin 2 → Nat) a ≤ S512x8192.size a)
    (w : (Rect.unit (s := S512x8192) ![0, o] ![512, 2048] inb).shape.Idx → Elt Ideal .f32) (M : List AccPiece)
    (r : Fin 512) (q : Fin 2048) :
    View.canon ((⟨Rect.unit (s := S512x8192) ![0, o] ![512, 2048] inb, w⟩ : AccPiece) :: M)
        (ix2 r (⟨o + q.val, by omega⟩ : Fin 8192)) = w (ix2 r q) :=
  (congrArg (View.canon ((⟨Rect.unit (s := S512x8192) ![0, o] ![512, 2048] inb, w⟩ : AccPiece) :: M))
    (emb_cols o ho inb r q).symm).trans (View.canon_cons_emb _ w M (ix2 r q))

/-- An entry in another column block reads what the earlier stores left. -/
theorem canon_cols_miss (o : ℕ)
    (inb : ∀ a, (![0, o] : Fin 2 → Nat) a + (![512, 2048] : Fin 2 → Nat) a ≤ S512x8192.size a)
    (w : (Rect.unit (s := S512x8192) ![0, o] ![512, 2048] inb).shape.Idx → Elt Ideal .f32) (M : List AccPiece)
    (r : Fin 512) (n : Fin 8192) (h : n.val < o ∨ o + 2048 ≤ n.val) :
    View.canon ((⟨Rect.unit (s := S512x8192) ![0, o] ![512, 2048] inb, w⟩ : AccPiece) :: M) (ix2 r n)
      = View.canon M (ix2 r n) :=
  View.canon_cons_of_not_mem _ M (by
    rw [Rect.mem_set_unit]
    intro hm
    have h1 : o ≤ n.val ∧ n.val < o + 2048 := hm 1
    omega)

/-- A load of the column block at offset `o` after the stores `M`, at an entry: what `M` left there. -/
theorem readCov_cols {sig' : RefSig} {κ : Kind} {sp : Space} (v : View sig' κ sp S512x8192 .f32) (o : ℕ) (ho : o + 2048 ≤ 8192)
    (inb : ∀ a, (![0, o] : Fin 2 → Nat) a + (![512, 2048] : Fin 2 → Nat) a ≤ S512x8192.size a) (M : List AccPiece)
    (r : Fin 512) (q : Fin 2048) :
    v.readCov M (Rect.unit (s := S512x8192) ![0, o] ![512, 2048] inb).toLoadRect (ix2 r q)
      = View.canon M (ix2 r (⟨o + q.val, by omega⟩ : Fin 8192)) := by
  rw [View.readCov_eq_canon']
  exact congrArg (View.canon M) (emb_cols o ho inb r q)

/-- The four spellings of one chunk's update, at an entry. -/
theorem pay6_apply (x0 : FVec Ideal S512x256 .bf16) (w : FVec Ideal S256x2048 .bf16) (acc : FVec Ideal S512x2048 .f32)
    (r : Fin 512) (q : Fin 2048) :
    k0_pay6 (F := Ideal) x0 w acc (ix2 r q) = acc (ix2 r q) + ∑ kk : Fin 256, x0 (ix2 r kk) * w (ix2 kk q) := by
  unfold k0_pay6 k0_pay5; simp only [shapeCast_self]; exact chunk_apply x0 w acc r q
theorem pay7_apply (x0 : FVec Ideal S512x256 .bf16) (w : FVec Ideal S256x2048 .bf16) (acc : FVec Ideal S512x2048 .f32)
    (r : Fin 512) (q : Fin 2048) :
    k0_pay7 (F := Ideal) x0 w acc (ix2 r q) = acc (ix2 r q) + ∑ kk : Fin 256, x0 (ix2 r kk) * w (ix2 kk q) := by
  unfold k0_pay7 k0_pay5; simp only [shapeCast_self]; exact chunk_apply x0 w acc r q
theorem pay1_apply (x0 : FVec Ideal S512x256 .bf16) (w : FVec Ideal S256x2048 .bf16) (acc : FVec Ideal S512x2048 .f32)
    (r : Fin 512) (q : Fin 2048) :
    k0_pay1 (F := Ideal) (k0_pay5 (F := Ideal) x0) (k0_pay8 (F := Ideal) w) acc (ix2 r q)
      = acc (ix2 r q) + ∑ kk : Fin 256, x0 (ix2 r kk) * w (ix2 kk q) := by
  unfold k0_pay1 k0_pay5 k0_pay8; simp only [shapeCast_self]; exact chunk_apply x0 w acc r q
theorem pay2_apply (x0 : FVec Ideal S512x256 .bf16) (w : FVec Ideal S256x2048 .bf16) (acc : FVec Ideal S512x2048 .f32)
    (r : Fin 512) (q : Fin 2048) :
    k0_pay2 (F := Ideal) (k0_pay5 (F := Ideal) x0) w acc (ix2 r q)
      = acc (ix2 r q) + ∑ kk : Fin 256, x0 (ix2 r kk) * w (ix2 kk q) := by
  unfold k0_pay2 k0_pay5; simp only [shapeCast_self]; exact chunk_apply x0 w acc r q

/-- An old entry `e` plus the 256 products against the column chunk of the `D` tile at offset `o` is the step's entry,
    when `e` is the entry of `Z` the step starts from. -/
theorem step_at (x0 : FVec Ideal S512x256 .bf16) (x1 : FVec Ideal S256x8192 .bf16) (Z : FVec Ideal S512x8192 .f32)
    (o : ℕ) (ho : o + 2048 ≤ 8192)
    (inb1 : ∀ a, (![0, o] : Fin 2 → Nat) a + (![256, 2048] : Fin 2 → Nat) a ≤ S256x8192.size a)
    (r : Fin 512) (q : Fin 2048) (e : EReal) (he : e = Z (ix2 r (⟨o + q.val, by omega⟩ : Fin 8192))) :
    e + ∑ kk : Fin 256, x0 (ix2 r kk)
        * View.ld (Val := Elt Ideal) (e' := .bf16) x1 (Rect.unit (s := S256x8192) ![0, o] ![256, 2048] inb1) (ix2 kk q)
      = stepOf x0 x1 Z (ix2 r (⟨o + q.val, by omega⟩ : Fin 8192)) := by
  subst he
  unfold stepOf
  exact congrArg (Z (ix2 r (⟨o + q.val, by omega⟩ : Fin 8192)) + ·)
    (Finset.sum_congr rfl fun kk _ => by rw [ld_cols_tile x1 o ho inb1 kk q])

/-- The zero block the first contraction tile stores, at an entry. -/
theorem zero_block_apply (y : S512x8192.Idx) : k0_pay4 (F := Ideal) y = 0 := by
  unfold k0_pay4
  simp only [shapeCast_self]
  exact Ideal.ofBits_zero_f32

/-- A column of the chunk at offset `o` is a column of the accumulator. -/
theorem chunk_col_lt (o : ℕ) (ho : o + 2048 ≤ 8192) (q : Fin 2048) : o + q.val < 8192 := by omega

/-- A column between `o` and `o + 2048` is column `q` of the chunk at offset `o`. -/
theorem exists_chunk_col (o : ℕ) (ho : o + 2048 ≤ 8192) (n : Fin 8192) (h1 : o ≤ n.val) (h2 : n.val < o + 2048) :
    ∃ q : Fin 2048, n = (⟨o + q.val, chunk_col_lt o ho q⟩ : Fin 8192) :=
  ⟨⟨n.val - o, by omega⟩, Fin.ext (by show n.val = o + (n.val - o); omega)⟩

/-- THE FIRST CONTRACTION TILE leaves the step of the zero block. -/
theorem scratch_first (c : Dev nD) (i : grid0.Coords) (a2 : Memref sig .tc .vmem S512x256 .bf16) (h2 : a2.IsWhole)
    (a3 : Memref sig .tc .vmem S256x8192 .bf16) (h3 : a3.IsWhole) (a4 : Memref sig .tc .vmem S512x16 .f32) (h4 : a4.IsWhole)
    (a5 : Memref sig .tc .vmem S512x8192 .f32) (h5 : a5.IsWhole) (hc0 : cond0_0 i) (hc1 : ¬cond0_1 i)
    (x0 : FVec Ideal S512x256 .bf16) (x1 : FVec Ideal S256x8192 .bf16) :
    sout0_A_0 (F := Ideal) c i a2 h2 a3 h3 a4 h4 a5 h5 hc0 hc1 x0 x1 = stepOf x0 x1 (k0_pay4 (F := Ideal)) := by
  funext y
  obtain ⟨r, n, rfl⟩ : ∃ (r : Fin 512) (n : Fin 8192), y = ix2 r n := ⟨y 0, y 1, eq_ix2 y⟩
  unfold sout0_A_0
  rw [View.read_writes_junk_eq_canon]
  unfold kernelRun0_A
  dsimp only
  sl_unfold_words
  simp only [View.readAt_eq_ld, h2.read_unread, h3.read_unread, View.ld_unit_zero (S := S512x256) hz2]
  have hn : n.val < 8192 := n.isLt
  rcases (show n.val < 2048 ∨ (2048 ≤ n.val ∧ n.val < 4096) ∨ (4096 ≤ n.val ∧ n.val < 6144) ∨ 6144 ≤ n.val by omega)
    with h | h | h | h
  ·
    refine (canon_cols_miss 6144 _ _ _ r n (Or.inl (by omega))).trans ?_
    refine (canon_cols_miss 4096 _ _ _ r n (Or.inl (by omega))).trans ?_
    refine (canon_cols_miss 2048 _ _ _ r n (Or.inl (by omega))).trans ?_
    obtain ⟨q, rfl⟩ := exists_chunk_col 0 (by decide) n (by omega) (by omega)
    refine (canon_cols_hit 0 (by omega) _ _ _ r q).trans ?_
    refine (pay6_apply x0 _ _ r q).trans ?_
    refine step_at x0 x1 (k0_pay4 (F := Ideal)) 0 (by omega) _ r q _ ?_
    refine (readCov_cols a5.view 0 (by omega) _ _ r q).trans ?_
    exact congrFun (View.canon_unit_zero hz2 _ _) _
  ·
    refine (canon_cols_miss 6144 _ _ _ r n (Or.inl (by omega))).trans ?_
    refine (canon_cols_miss 4096 _ _ _ r n (Or.inl (by omega))).trans ?_
    obtain ⟨q, rfl⟩ := exists_chunk_col 2048 (by decide) n (by omega) (by omega)
    refine (canon_cols_hit 2048 (by omega) _ _ _ r q).trans ?_
    refine (pay7_apply x0 _ _ r q).trans ?_
    refine step_at x0 x1 (k0_pay4 (F := Ideal)) 2048 (by omega) _ r q _ ?_
    refine (readCov_cols a5.view 2048 (by omega) _ _ r q).trans ?_
    refine (canon_cols_miss 0 _ _ _ r _ (Or.inr (Nat.le_trans (by decide : 0 + 2048 ≤ 2048) (Nat.le_add_right 2048 q.val)))).trans ?_
    exact congrFun (View.canon_unit_zero hz2 _ _) _
  ·
    refine (canon_cols_miss 6144 _ _ _ r n (Or.inl (by omega))).trans ?_
    obtain ⟨q, rfl⟩ := exists_chunk_col 4096 (by decide) n (by omega) (by omega)
    refine (canon_cols_hit 4096 (by omega) _ _ _ r q).trans ?_
    refine (pay1_apply x0 _ _ r q).trans ?_
    refine step_at x0 x1 (k0_pay4 (F := Ideal)) 4096 (by omega) _ r q _ ?_
    refine (readCov_cols a5.view 4096 (by omega) _ _ r q).trans ?_
    refine (canon_cols_miss 2048 _ _ _ r _ (Or.inr (Nat.le_trans (by decide : 2048 + 2048 ≤ 4096) (Nat.le_add_right 4096 q.val)))).trans ?_
    refine (canon_cols_miss 0 _ _ _ r _ (Or.inr (Nat.le_trans (by decide : 0 + 2048 ≤ 4096) (Nat.le_add_right 4096 q.val)))).trans ?_
    exact congrFun (View.canon_unit_zero hz2 _ _) _
  ·
    obtain ⟨q, rfl⟩ := exists_chunk_col 6144 (by decide) n (by omega) (by omega)
    refine (canon_cols_hit 6144 (by omega) _ _ _ r q).trans ?_
    refine (pay2_apply x0 _ _ r q).trans ?_
    refine step_at x0 x1 (k0_pay4 (F := Ideal)) 6144 (by omega) _ r q _ ?_
    refine (readCov_cols a5.view 6144 (by omega) _ _ r q).trans ?_
    refine (canon_cols_miss 4096 _ _ _ r _ (Or.inr (Nat.le_trans (by decide : 4096 + 2048 ≤ 6144) (Nat.le_add_right 6144 q.val)))).trans ?_
    refine (canon_cols_miss 2048 _ _ _ r _ (Or.inr (Nat.le_trans (by decide : 2048 + 2048 ≤ 6144) (Nat.le_add_right 6144 q.val)))).trans ?_
    refine (canon_cols_miss 0 _ _ _ r _ (Or.inr (Nat.le_trans (by decide : 0 + 2048 ≤ 6144) (Nat.le_add_right 6144 q.val)))).trans ?_
    exact congrFun (View.canon_unit_zero hz2 _ _) _

end Cert.KernelIdeal.Accum

end
-- ==== Proof.ScratchLast.lean ====
/-
  The LAST contraction tile of a row block's run: the point updates the accumulator by the step, as a middle point
  does, and then writes the output block: the epilogue (cluster energies, smoothing, row normalisation) of the
  accumulator the four stores have just left.
-/
import proofs.«161449_j18296560681209_2_alg».proof.Proof.ScratchPieces

set_option maxRecDepth 16384

noncomputable section

namespace Cert.KernelIdeal.Accum

open Cert.KernelIdeal Cert.KernelIdeal.Gen
open Idealize.ShloMosaic Idealize.ShloMosaic.TcCoe Idealize.ShloMosaic.ValueIdx Idealize.SL.Sem

/-- The accumulator after the last contraction tile: the step of what the point found. -/
theorem scratch_last (c : Dev nD) (i : grid0.Coords) (a2 : Memref sig .tc .vmem S512x256 .bf16) (h2 : a2.IsWhole)
    (a3 : Memref sig .tc .vmem S256x8192 .bf16) (h3 : a3.IsWhole) (a4 : Memref sig .tc .vmem S512x16 .f32) (h4 : a4.IsWhole)
    (a5 : Memref sig .tc .vmem S512x8192 .f32) (h5 : a5.IsWhole) (hc0 : ¬cond0_0 i) (hc1 : cond0_1 i)
    (x0 : FVec Ideal S512x256 .bf16) (x1 : FVec Ideal S256x8192 .bf16) (xs0 : FVec Ideal S512x8192 .f32) :
    sout0_C_0 (F := Ideal) c i a2 h2 a3 h3 a4 h4 a5 h5 hc0 hc1 x0 x1 xs0 = stepOf x0 x1 xs0 := by
  funext y
  unfold sout0_C_0
  rw [View.read_writes_junk_eq_canon]
  refine View.canon_apply_of_pieces (stepOf x0 x1 xs0) _ ?_ y (scover0_C_0 (F := Ideal) c i a2 h2 a3 h3 a4 h4 a5 h5 hc0 hc1 x0 x1 xs0 y)
  unfold kernelRun0_C
  dsimp only
  sl_unfold_words
  intro p hp x
  simp only [List.mem_cons, List.mem_singleton, List.not_mem_nil, or_false] at hp
  rcases hp with rfl | rfl | rfl | rfl
  · simp only [View.readAt_eq_ld, h2.read_unread, h3.read_unread, h5.read_unread, View.ld_unit_zero (S := S512x256) hz2]
    unfold k0_pay2 k0_pay5
    simp only [shapeCast_self]
    exact stored_eq_step x0 x1 xs0 6144 (by omega) _ _ x
  · simp only [View.readAt_eq_ld, h2.read_unread, h3.read_unread, h5.read_unread, View.ld_unit_zero (S := S512x256) hz2]
    unfold k0_pay1 k0_pay5 k0_pay8
    simp only [shapeCast_self]
    exact stored_eq_step x0 x1 xs0 4096 (by omega) _ _ x
  · simp only [View.readAt_eq_ld, h2.read_unread, h3.read_unread, h5.read_unread, View.ld_unit_zero (S := S512x256) hz2]
    unfold k0_pay7 k0_pay5
    simp only [shapeCast_self]
    exact stored_eq_step x0 x1 xs0 2048 (by omega) _ _ x
  · simp only [View.readAt_eq_ld, h2.read_unread, h3.read_unread, h5.read_unread, View.ld_unit_zero (S := S512x256) hz2]
    unfold k0_pay6 k0_pay5
    simp only [shapeCast_self]
    exact stored_eq_step x0 x1 xs0 0 (by omega) _ _ x

/-- The output block the last contraction tile writes: the epilogue of the accumulator as the point leaves it (the body
    loads the whole accumulator back after its four stores). -/
theorem out_last (c : Dev nD) (i : grid0.Coords) (a2 : Memref sig .tc .vmem S512x256 .bf16) (h2 : a2.IsWhole)
    (a3 : Memref sig .tc .vmem S256x8192 .bf16) (h3 : a3.IsWhole) (a4 : Memref sig .tc .vmem S512x16 .f32) (h4 : a4.IsWhole)
    (a5 : Memref sig .tc .vmem S512x8192 .f32) (h5 : a5.IsWhole) (hc0 : ¬cond0_0 i) (hc1 : cond0_1 i)
    (x0 : FVec Ideal S512x256 .bf16) (x1 : FVec Ideal S256x8192 .bf16) (xs0 : FVec Ideal S512x8192 .f32) :
    out0_C_2 (F := Ideal) c i a2 h2 a3 h3 a4 h4 a5 h5 hc0 hc1 x0 x1 xs0 = k0_pay3 (F := Ideal) (stepOf x0 x1 xs0) := by
  unfold out0_C_2
  rw [View.read_writes_junk_eq_canon]
  unfold kernelRun0_C
  dsimp only
  sl_unfold_words
  rw [View.canon_unit_zero hz2]
  refine congrArg (k0_pay3 (F := Ideal)) ?_
  rw [View.readCov_eq_canon']
  funext y
  refine (View.canon_apply_of_pieces (stepOf x0 x1 xs0) _ ?pieces _ ?cover).trans ?whole
  case whole =>
    exact congrArg (stepOf x0 x1 xs0) (funext fun a => Fin.ext (by
      match a with
      | ⟨0, _⟩ => show 0 + 1 * (y 0).val = (y 0).val; omega
      | ⟨1, _⟩ => show 0 + 1 * (y 1).val = (y 1).val; omega))
  case cover =>
    exact View.cover_of_tiledL (Val := Elt Ideal) (s := S512x8192) (e := .f32) _ S512x2048.size (by sl_kernel_rfl) _
  intro p hp x
  simp only [List.mem_cons, List.mem_singleton, List.not_mem_nil, or_false] at hp
  rcases hp with rfl | rfl | rfl | rfl
  · simp only [View.readAt_eq_ld, h2.read_unread, h3.read_unread, h5.read_unread, View.ld_unit_zero (S := S512x256) hz2]
    unfold k0_pay2 k0_pay5
    simp only [shapeCast_self]
    exact stored_eq_step x0 x1 xs0 6144 (by omega) _ _ x
  · simp only [View.readAt_eq_ld, h2.read_unread, h3.read_unread, h5.read_unread, View.ld_unit_zero (S := S512x256) hz2]
    unfold k0_pay1 k0_pay5 k0_pay8
    simp only [shapeCast_self]
    exact stored_eq_step x0 x1 xs0 4096 (by omega) _ _ x
  · simp only [View.readAt_eq_ld, h2.read_unread, h3.read_unread, h5.read_unread, View.ld_unit_zero (S := S512x256) hz2]
    unfold k0_pay7 k0_pay5
    simp only [shapeCast_self]
    exact stored_eq_step x0 x1 xs0 2048 (by omega) _ _ x
  · simp only [View.readAt_eq_ld, h2.read_unread, h3.read_unread, h5.read_unread, View.ld_unit_zero (S := S512x256) hz2]
    unfold k0_pay6 k0_pay5
    simp only [shapeCast_self]
    exact stored_eq_step x0 x1 xs0 0 (by omega) _ _ x

end Cert.KernelIdeal.Accum

end
-- ==== Proof.LibTileSum.lean ====
/-
  Regrouping a finite sum over `Fin (K * N)` into `K` consecutive tiles of `N` terms each.

  Position `m < K * N` is written `N * s + j` with tile `s < K` and offset `j < N`; a sum over all positions is then
  the sum over the tiles of each tile's own sum. Only commutativity and associativity of the addition are used, so
  the lemmas hold in any additive commutative monoid.
-/
import Mathlib.Data.Fintype.BigOperators
import Mathlib.Logic.Equiv.Fin.Basic

namespace Cert.Lib

open Finset

variable {β : Type*} [AddCommMonoid β]

/-- Offset `j < N` inside tile `s < K` is a position below `K * N`. -/
theorem tile_index_lt {K N : ℕ} (s : Fin K) (j : Fin N) : N * s.val + j.val < K * N :=
  calc N * s.val + j.val < N * s.val + N := Nat.add_lt_add_left j.isLt _
    _ = N * (s.val + 1) := (Nat.mul_succ _ _).symm
    _ ≤ N * K := Nat.mul_le_mul_left _ s.isLt
    _ = K * N := Nat.mul_comm _ _

/-- A sum over `K * N` positions is the sum over the `K` tiles of the sum over each tile's `N` offsets:
    `(s, j) ↦ N * s + j` is a bijection from pairs (tile, offset) onto positions. -/
theorem sum_fin_mul_eq_sum_tiles (K N : ℕ) (f : Fin (K * N) → β) :
    ∑ m : Fin (K * N), f m = ∑ s : Fin K, ∑ j : Fin N, f ⟨N * s.val + j.val, tile_index_lt s j⟩ := by
  rw [← (finProdFinEquiv : Fin K × Fin N ≃ Fin (K * N)).sum_comp f, Fintype.sum_prod_type]
  refine Finset.sum_congr rfl fun s _ => Finset.sum_congr rfl fun j _ => congrArg f (Fin.ext ?_)
  show j.val + N * s.val = N * s.val + j.val
  exact Nat.add_comm _ _

/-- The same with the tiles counted by `Finset.range K`: if `T s` is tile `s`'s own sum for every `s < K`, the sum
    over all positions is `∑ s ∈ range K, T s`. -/
theorem sum_fin_mul_eq_sum_range_of_tiles (K N : ℕ) (f : Fin (K * N) → β) (T : ℕ → β)
    (hT : ∀ s : Fin K, T s.val = ∑ j : Fin N, f ⟨N * s.val + j.val, tile_index_lt s j⟩) :
    ∑ m : Fin (K * N), f m = ∑ s ∈ Finset.range K, T s := by
  rw [sum_fin_mul_eq_sum_tiles K N f, ← Fin.sum_univ_eq_sum_range T K]
  exact Finset.sum_congr rfl fun s _ => (hT s).symm

/-- The same for a summand given as a function `g` of the position as a natural number: the sum over all positions
    is the sum over `s ∈ range K` of `∑ j : Fin N, g (N * s + j)`. -/
theorem sum_fin_mul_eq_sum_range (K N : ℕ) (f : Fin (K * N) → β) (g : ℕ → β) (hfg : ∀ m : Fin (K * N), f m = g m.val) :
    ∑ m : Fin (K * N), f m = ∑ s ∈ Finset.range K, ∑ j : Fin N, g (N * s + j.val) :=
  sum_fin_mul_eq_sum_range_of_tiles K N f (fun s => ∑ j : Fin N, g (N * s + j.val))
    fun s => Finset.sum_congr rfl fun j _ => (hfg ⟨N * s.val + j.val, tile_index_lt s j⟩).symm

/-! ## Four tiles of 1024 in 4096 positions

The three lemmas at `K = 4`, `N = 1024`, with the index type spelt `Fin 4096`. -/

/-- Offset `j < 1024` inside tile `s < 4` is a position below 4096. -/
theorem tile_index_lt_4096 (s : Fin 4) (j : Fin 1024) : 1024 * s.val + j.val < 4096 :=
  tile_index_lt (K := 4) (N := 1024) s j

/-- A sum over 4096 positions is the sum over four tiles of the sum over each tile's 1024 offsets. -/
theorem sum_fin4096_eq_sum_tiles (f : Fin 4096 → β) :
    ∑ m : Fin 4096, f m = ∑ s : Fin 4, ∑ j : Fin 1024, f ⟨1024 * s.val + j.val, tile_index_lt_4096 s j⟩ :=
  sum_fin_mul_eq_sum_tiles 4 1024 f

/-- The same with the four tiles counted by `Finset.range 4`, each tile's sum given as `T s`. -/
theorem sum_fin4096_eq_sum_range_of_tiles (f : Fin 4096 → β) (T : ℕ → β)
    (hT : ∀ s : Fin 4, T s.val = ∑ j : Fin 1024, f ⟨1024 * s.val + j.val, tile_index_lt_4096 s j⟩) :
    ∑ m : Fin 4096, f m = ∑ s ∈ Finset.range 4, T s :=
  sum_fin_mul_eq_sum_range_of_tiles 4 1024 f T hT

/-- The same for a summand given as a function `g` of the position as a natural number. -/
theorem sum_fin4096_eq_sum_range (f : Fin 4096 → β) (g : ℕ → β) (hfg : ∀ m : Fin 4096, f m = g m.val) :
    ∑ m : Fin 4096, f m = ∑ s ∈ Finset.range 4, ∑ j : Fin 1024, g (1024 * s + j.val) :=
  sum_fin_mul_eq_sum_range 4 1024 f g hfg

end Cert.Lib
-- ==== Proof.ClusterShares.lean ====
/-
  What both programs compute, as one function of the two argument arrays `z` (16384 × 8192) and `D` (8192 × 8192),
  over the extended reals.

  Row `a` of the product `z · D` has the 8192 entries `prod z D a n = ∑ k, z[a, k] · D[k, n]`. They fall into 16
  consecutive clusters of 512; cluster `c`'s energy is the sum of the squares of its 512 entries, the energy is
  smoothed to `(energy + 2560) / 3072`, and each row's 16 smoothed energies are divided by their sum: entry
  `(a, c)` of the result is the share of cluster `c` in row `a`.

  The arrays are read at natural-number coordinates (zero outside their extents), so that a tile of a row or a
  column is plain arithmetic on the coordinates: the contraction index `k < 8192` is tile `s < 32` and offset
  `kk < 256`, `k = 256 · s + kk`, and the product is the sum over the tiles of each tile's 256 terms. That
  regrouping uses only the commutativity and associativity of the extended reals' addition.
-/
import Idealize.ShloMosaic.PureOps.Ideal.Laws
import Idealize.ShloMosaic.Lib.ValueIdx
import proofs.«161449_j18296560681209_2_alg».proof.Proof.LibTileSum

noncomputable section

namespace Cert.ClusterShares

open Idealize.ShloMosaic Idealize.ShloMosaic.ValueIdx

/-- `z` at natural-number coordinates: the entry inside the array, zero outside. -/
def zAt (z : (⟨2, ![16384, 8192]⟩ : Shape).Idx → EReal) (a b : ℕ) : EReal :=
  if h : a < 16384 ∧ b < 8192 then z (ix2 (⟨a, h.1⟩ : Fin 16384) (⟨b, h.2⟩ : Fin 8192)) else 0

/-- `D` at natural-number coordinates: the entry inside the array, zero outside. -/
def dAt (d : (⟨2, ![8192, 8192]⟩ : Shape).Idx → EReal) (a b : ℕ) : EReal :=
  if h : a < 8192 ∧ b < 8192 then d (ix2 (⟨a, h.1⟩ : Fin 8192) (⟨b, h.2⟩ : Fin 8192)) else 0

/-- An entry of `z` is `zAt` at its coordinates. -/
theorem zAt_eq (z : (⟨2, ![16384, 8192]⟩ : Shape).Idx → EReal) (j : (⟨2, ![16384, 8192]⟩ : Shape).Idx) (a b : ℕ)
    (h0 : (j 0).val = a) (h1 : (j 1).val = b) : z j = zAt z a b := by
  subst h0; subst h1
  unfold zAt
  rw [dif_pos ⟨idx2_lt0 j, idx2_lt1 j⟩]
  exact congrArg z (funext fun x => match x with | ⟨0, _⟩ => rfl | ⟨1, _⟩ => rfl)

/-- An entry of `D` is `dAt` at its coordinates. -/
theorem dAt_eq (d : (⟨2, ![8192, 8192]⟩ : Shape).Idx → EReal) (j : (⟨2, ![8192, 8192]⟩ : Shape).Idx) (a b : ℕ)
    (h0 : (j 0).val = a) (h1 : (j 1).val = b) : d j = dAt d a b := by
  subst h0; subst h1
  unfold dAt
  rw [dif_pos ⟨idx2_lt0 j, idx2_lt1 j⟩]
  exact congrArg d (funext fun x => match x with | ⟨0, _⟩ => rfl | ⟨1, _⟩ => rfl)

variable (z : (⟨2, ![16384, 8192]⟩ : Shape).Idx → EReal) (d : (⟨2, ![8192, 8192]⟩ : Shape).Idx → EReal)

/-- Entry `(a, n)` of the product `z · D`. -/
def prod (a n : ℕ) : EReal := ∑ k : Fin 8192, zAt z a k.val * dAt d k.val n

/-- The part of entry `(a, n)` of the product that contraction tile `s` contributes: its 256 terms. -/
def tile (a n s : ℕ) : EReal := ∑ kk : Fin 256, zAt z a (256 * s + kk.val) * dAt d (256 * s + kk.val) n

/-- Entry `(a, n)` of the product summed over the first `k` contraction tiles only. -/
def partialProd (a n k : ℕ) : EReal := ∑ s ∈ Finset.range k, tile z d a n s

theorem partialProd_zero (a n : ℕ) : partialProd z d a n 0 = 0 := Finset.sum_range_zero _

theorem partialProd_succ (a n k : ℕ) : partialProd z d a n (k + 1) = partialProd z d a n k + tile z d a n k :=
  Finset.sum_range_succ _ _

theorem partialProd_one (a n : ℕ) : partialProd z d a n 1 = tile z d a n 0 := by
  rw [partialProd_succ, partialProd_zero, zero_add]

/-- All 32 tiles together are the whole contraction: 8192 positions are 32 tiles of 256. -/
theorem partialProd_all (a n : ℕ) : partialProd z d a n 32 = prod z d a n :=
  (Cert.Lib.sum_fin_mul_eq_sum_range 32 256 (fun k : Fin (32 * 256) => zAt z a k.val * dAt d k.val n)
    (fun k => zAt z a k * dAt d k n) (fun _ => rfl)).symm

/-- The energy of cluster `c` of a row whose product entries are `q`: the sum of the squares of entries
    `512 c, …, 512 c + 511`. -/
def energyOf (q : ℕ → EReal) (c : ℕ) : EReal := ∑ j : Fin 512, q (512 * c + j.val) * q (512 * c + j.val)

/-- The smoothed energy `(energy + 2560) / 3072`, the two constants as the float words both programs carry. -/
def smoothedOf (q : ℕ → EReal) (c : ℕ) : EReal :=
  Ideal.div (energyOf q c + Ideal.ofBits .f32 0x45200000#32) (Ideal.ofBits .f32 0x45400000#32)

/-- Cluster `c`'s share of the row: its smoothed energy over the sum of the row's 16 smoothed energies. -/
def shareOf (q : ℕ → EReal) (c : ℕ) : EReal :=
  Ideal.div (smoothedOf q c) (∑ c' : Fin 16, smoothedOf q c'.val)

/-- THE RESULT: entry `(a, c)` is cluster `c`'s share of row `a` of `z · D`. -/
def shares : (⟨2, ![16384, 16]⟩ : Shape).Idx → EReal := fun i => shareOf (prod z d (i 0).val) (i 1).val

end Cert.ClusterShares

end
-- ==== Proof.TileReads.lean ====
/-
  Which entries of the argument arrays a grid point holds.

  The grid has 32 × 32 points; point `t` is row block `t / 32` and contraction tile `t % 32`. Its `z` tile is rows
  `512 (t / 32) …` and columns `256 (t % 32) …` of `z`; its `D` tile is rows `256 (t % 32) …` and all columns of
  `D`; its output block is rows `512 (t / 32) …` of the result. The arrays the region reads are the arguments
  themselves: the change of float format before the region is the identity on the extended reals.
-/
import proofs.«161449_j18296560681209_2_alg».proof.Proof.Gen.KernelIdeal.Frame
import proofs.«161449_j18296560681209_2_alg».proof.Proof.ClusterShares
import Idealize.ShloMosaic.Lib.StableHlo.Run
import Idealize.ShloMosaic.Lib.Pipeline.Value

noncomputable section

namespace Cert.KernelIdeal.Tiles

open Cert.KernelIdeal Cert.KernelIdeal.Gen Cert.ClusterShares
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The three windows' block indices at every grid point, decided over the grid. -/
theorem tile_indices : ∀ t : Fin cfg0.N,
    win0_0.index t (0 : Fin 2) = t.val / 32 ∧ win0_0.index t (1 : Fin 2) = t.val % 32
    ∧ win0_1.index t (0 : Fin 2) = t.val % 32 ∧ win0_1.index t (1 : Fin 2) = 0
    ∧ win0_2.index t (0 : Fin 2) = t.val / 32 ∧ win0_2.index t (1 : Fin 2) = 0 :=
  (by decide +kernel : ∀ t : Fin grid0.N, _)

/-- The array the first window reads is `z`. -/
theorem region_z (c : Dev nD) (j : S16384x8192.Idx) :
    (V m c main_v0 : S16384x8192.Idx → EReal) j = (m ((c : Thread nD τ).loc main_arg0) : S16384x8192.Idx → EReal) j := by
  have e : (V m c main_v0 : S16384x8192.Idx → EReal)
      = truncf (F := Ideal) .bf16 (m ((c : Thread nD τ).loc main_arg0) : S16384x8192.Idx → EReal) bitsLt_bf16_f32 := by
    dsimp only [Gen.V, Gen.hostOps0]; after_results
  rw [e]; rfl

/-- The array the second window reads is `D`. -/
theorem region_d (c : Dev nD) (j : S8192x8192.Idx) :
    (V m c main_v1 : S8192x8192.Idx → EReal) j = (m ((c : Thread nD τ).loc main_arg1) : S8192x8192.Idx → EReal) j := by
  have e : (V m c main_v1 : S8192x8192.Idx → EReal)
      = truncf (F := Ideal) .bf16 (m ((c : Thread nD τ).loc main_arg1) : S8192x8192.Idx → EReal) bitsLt_bf16_f32 := by
    dsimp only [Gen.V, Gen.hostOps0]; after_results
  rw [e]; rfl

/-- Entry `(r, kk)` of point `t`'s `z` tile. -/
theorem ztile_apply (c : Dev nD) (t : Fin cfg0.N) (r : Fin 512) (kk : Fin 256) :
    (iblk m c 0 t : FVec Ideal S512x256 .bf16) (ix2 r kk)
      = zAt (m ((c : Thread nD τ).loc main_arg0)) (512 * (t.val / 32) + r.val) (256 * (t.val % 32) + kk.val) := by
  obtain ⟨e0, e1, -⟩ := tile_indices t
  unfold iblk
  rw [View.read_apply]
  show (V m c main_v0 : S16384x8192.Idx → EReal) (((cfg0.win 0).blk t).view.emb (ix2 r kk)) = _
  rw [region_z]
  exact zAt_eq _ _ _ _
    (by show win0_0.index t (0 : Fin 2) * 512 + 1 * r.val = _; rw [e0]; omega)
    (by show win0_0.index t (1 : Fin 2) * 256 + 1 * kk.val = _; rw [e1]; omega)

/-- Entry `(kk, n)` of point `t`'s `D` tile. -/
theorem dtile_apply (c : Dev nD) (t : Fin cfg0.N) (kk : Fin 256) (n : Fin 8192) :
    (iblk m c 1 t : FVec Ideal S256x8192 .bf16) (ix2 kk n)
      = dAt (m ((c : Thread nD τ).loc main_arg1)) (256 * (t.val % 32) + kk.val) n.val := by
  obtain ⟨-, -, e2, e3, -⟩ := tile_indices t
  unfold iblk
  rw [View.read_apply]
  show (V m c main_v1 : S8192x8192.Idx → EReal) (((cfg0.win 1).blk t).view.emb (ix2 kk n)) = _
  rw [region_d]
  exact dAt_eq _ _ _ _
    (by show win0_1.index t (0 : Fin 2) * 256 + 1 * kk.val = _; rw [e2]; omega)
    (by show win0_1.index t (1 : Fin 2) * 8192 + 1 * n.val = _; rw [e3]; omega)

end Cert.KernelIdeal.Tiles

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Epilogue.lean ====
/-
  The epilogue, read at an entry.

  From a 512 × 8192 accumulator block the last contraction tile computes, row by row: the 8192 entries seen as 16
  clusters of 512; each cluster's energy, the sum of its squares; the smoothed energy `(energy + 2560) / 3072`;
  and each smoothed energy divided by the sum of the row's 16. If row `r` of the block holds the row `q` of the
  product, entry `(r, c)` of the result is cluster `c`'s share of `q`.
-/
import proofs.«161449_j18296560681209_2_alg».proof.Proof.Gen.KernelIdeal.Skeleton
import proofs.«161449_j18296560681209_2_alg».proof.Proof.ClusterShares
import proofs.«161449_j18296560681209_2_alg».proof.Proof.LibColumns
import Idealize.ShloMosaic.Lib.Pipeline.Value
import Idealize.ShloMosaic.Lib.ValueLayout

noncomputable section

namespace Cert.KernelIdeal.Epilogue

open Cert.KernelIdeal Cert.KernelIdeal.Gen Cert.ClusterShares
open Idealize.ShloMosaic Idealize.ShloMosaic.ValueIdx

/-- The block seen as 16 clusters of 512 columns: cluster `c`'s column `j` is column `512 c + j`. -/
theorem clusters_apply (v : FVec Ideal S512x8192 .f32) (r : Fin 512) (cl : Fin 16) (j : Fin 512) :
    shapeCast S512x16x512 v shapeCasts_S512x8192_S512x16x512 (ix3 r cl j)
      = v (ix2 r (⟨512 * cl.val + j.val, by omega⟩ : Fin 8192)) :=
  shapeCast_apply v shapeCasts_S512x8192_S512x16x512 _ _ (by
    rw [Shape.rowMajor_val_two, Shape.rowMajor_val_three]
    show r.val * 8192 + (512 * cl.val + j.val) = (r.val * 16 + cl.val) * 512 + j.val
    omega)

/-- A sum over the last axis of a 512 × 16 × 512 block, at `(r, c)`. -/
theorem sum_last_axis (w : FVec Ideal S512x16x512 .f32) (r : Fin 512) (cl : Fin 16) :
    multiReduction (F := Ideal) .add [2] S512x16 w 0x00000000#32 reduces_S512x16x512_S512x16 (.inl rfl) rfl (ix2 r cl)
      = ∑ j : Fin 512, w (ix3 r cl j) := by
  refine (Ideal.multiReduction_add_single w 0x00000000#32 reduces_S512x16x512_S512x16 (.inl rfl) rfl (ix2 r cl)).trans ?_
  exact Finset.sum_congr rfl fun j _ => congrArg w (funext fun a => Fin.ext (by
    match a with | ⟨0, _⟩ => rfl | ⟨1, _⟩ => rfl | ⟨2, _⟩ => rfl))

/-- A sum over the columns of a 512 × 16 block, at row `r`. -/
theorem sum_row (w : FVec Ideal S512x16 .f32) (r : Fin 512) :
    multiReduction (F := Ideal) .add [1] S512 w 0x00000000#32 reduces_S512x16_S512 (.inl rfl) rfl (ix1 r)
      = ∑ c' : Fin 16, w (ix2 r c') := by
  refine (Ideal.multiReduction_add_single w 0x00000000#32 reduces_S512x16_S512 (.inl rfl) rfl (ix1 r)).trans ?_
  exact Finset.sum_congr rfl fun k _ => congrArg w (funext fun a => Fin.ext (by
    match a with | ⟨0, _⟩ => rfl | ⟨1, _⟩ => rfl))

/-- The smoothed cluster energies of an accumulator block. -/
def smoothedBlock (v : FVec Ideal S512x8192 .f32) : FVec Ideal S512x16 .f32 :=
  divf (addf
      (multiReduction (F := Ideal) .add [2] S512x16
        (mulf (shapeCast S512x16x512 v shapeCasts_S512x8192_S512x16x512) (shapeCast S512x16x512 v shapeCasts_S512x8192_S512x16x512))
        0x00000000#32 reduces_S512x16x512_S512x16 (.inl rfl) rfl)
      (broadcast S512x16 (Scalar.ofBits (F := Ideal) .f32 0x45200000#32)))
    (broadcast S512x16 (Scalar.ofBits (F := Ideal) .f32 0x45400000#32))

/-- The epilogue is the smoothed energies divided by their row sums, kept as a column and repeated along the row. -/
theorem epilogue_eq (v : FVec Ideal S512x8192 .f32) :
    k0_pay3 (F := Ideal) v
      = divf (smoothedBlock v)
          (broadcastTo S512x16
            (shapeCast S512x1 (multiReduction (F := Ideal) .add [1] S512 (smoothedBlock v) 0x00000000#32 reduces_S512x16_S512 (.inl rfl) rfl)
              shapeCasts_S512_S512x1)
            broadcasts_S512x1_S512x16) := rfl

/-- A smoothed energy at `(r, c)`, for a block whose row `r` holds `q`. -/
theorem smoothedBlock_apply (v : FVec Ideal S512x8192 .f32) (q : ℕ → EReal) (r : Fin 512)
    (hq : ∀ n : Fin 8192, v (ix2 r n) = q n.val) (cl : Fin 16) :
    smoothedBlock v (ix2 r cl) = smoothedOf q cl.val := by
  unfold smoothedBlock smoothedOf energyOf
  rw [divf_apply, addf_apply, broadcast_apply, broadcast_apply, sum_last_axis]
  refine congrArg (fun e => Ideal.div (e + Ideal.ofBits .f32 0x45200000#32) (Ideal.ofBits .f32 0x45400000#32)) ?_
  exact Finset.sum_congr rfl fun j _ => by rw [mulf_apply, clusters_apply, hq]

/-- THE EPILOGUE AT AN ENTRY: cluster `c`'s share of the row. -/
theorem epilogue_apply (v : FVec Ideal S512x8192 .f32) (q : ℕ → EReal) (r : Fin 512)
    (hq : ∀ n : Fin 8192, v (ix2 r n) = q n.val) (cl : Fin 16) :
    k0_pay3 (F := Ideal) v (ix2 r cl) = shareOf q cl.val := by
  rw [epilogue_eq, divf_apply, broadcastTo_a1_ab_apply, shapeCast_a_a1_apply, sum_row, smoothedBlock_apply v q r hq cl]
  unfold shareOf
  exact congrArg (Ideal.div (smoothedOf q cl.val)) (Finset.sum_congr rfl fun c' _ => smoothedBlock_apply v q r hq c')

end Cert.KernelIdeal.Epilogue

end
-- ==== Proof.Accumulated.lean ====
/-
  The accumulator after every grid point, by induction on the point.

  Point `t` is row block `t / 32`, contraction tile `t % 32`. After it, entry `(r, n)` of the accumulator is entry
  `(512 (t / 32) + r, n)` of the product summed over the contraction tiles `0 … t % 32`: the first tile of a row block
  starts from the zero block, every later tile adds its 256 terms to what the point before left. After the last tile
  the sum runs over all 32 tiles: the product's entry itself, and the output block is the epilogue of it.
-/
import proofs.«161449_j18296560681209_2_alg».proof.Proof.ScratchFirst
import proofs.«161449_j18296560681209_2_alg».proof.Proof.ScratchLast
import proofs.«161449_j18296560681209_2_alg».proof.Proof.TileReads
import proofs.«161449_j18296560681209_2_alg».proof.Proof.Epilogue

set_option maxRecDepth 16384

noncomputable section

namespace Cert.KernelIdeal.Accum

open Cert.KernelIdeal Cert.KernelIdeal.Gen Cert.ClusterShares Cert.KernelIdeal.Tiles Cert.KernelIdeal.Epilogue
open Idealize.ShloMosaic Idealize.ShloMosaic.TcCoe Idealize.ShloMosaic.ValueIdx Idealize.SL.Sem

variable (m : (ℓ : Loc nD τ sig) → Buf (Elt Ideal) ℓ)

/-- The step at an entry, for tiles that hold row `a` of `z` and column `col` of `D` at contraction tile `s`: the old
    entry plus that tile's part of the product. -/
theorem step_entry (z : (⟨2, ![16384, 8192]⟩ : Shape).Idx → EReal) (d : (⟨2, ![8192, 8192]⟩ : Shape).Idx → EReal)
    (x0 : FVec Ideal S512x256 .bf16) (x1 : FVec Ideal S256x8192 .bf16) (xs : FVec Ideal S512x8192 .f32)
    (a s : ℕ) (r : Fin 512) (col : Fin 8192)
    (hx0 : ∀ kk : Fin 256, x0 (ix2 r kk) = zAt z a (256 * s + kk.val))
    (hx1 : ∀ kk : Fin 256, x1 (ix2 kk col) = dAt d (256 * s + kk.val) col.val) :
    stepOf x0 x1 xs (ix2 r col) = xs (ix2 r col) + tile z d a col.val s := by
  unfold stepOf tile
  refine congrArg (xs (ix2 r col) + ·) (Finset.sum_congr rfl fun kk _ => ?_)
  show x0 (ix2 r kk) * x1 (ix2 kk col) = _
  rw [hx0 kk, hx1 kk]

/-- After the first contraction tile of a row block: that tile's part of the product. -/
theorem acc_first (c : Dev nD) (t : Fin cfg0.N) (h0 : t.val % 32 = 0) (h1 : ¬t.val % 32 = 31) (r : Fin 512) (col : Fin 8192) :
    ((outsAt0 m c t.val t.isLt).2 : FVec Ideal S512x8192 .f32) (ix2 r col)
      = partialProd (m ((c : Thread nD τ).loc main_arg0)) (m ((c : Thread nD τ).loc main_arg1))
          (512 * (t.val / 32) + r.val) col.val 1 := by
  rw [outsAt0_A m c t h0 h1]
  dsimp only
  refine (congrFun (scratch_first c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (iblk m c 0 t) (iblk m c 1 t)) (ix2 r col)).trans ?_
  refine (step_entry (m ((c : Thread nD τ).loc main_arg0)) (m ((c : Thread nD τ).loc main_arg1)) (iblk m c 0 t) (iblk m c 1 t)
    (k0_pay4 (F := Ideal)) (512 * (t.val / 32) + r.val) (t.val % 32) r col
    (fun kk => ztile_apply m c t r kk) (fun kk => dtile_apply m c t kk col)).trans ?_
  rw [zero_block_apply, zero_add, h0, partialProd_one]

/-- After a later contraction tile: what the point before left, plus this tile's part. -/
theorem acc_next (c : Dev nD) (t : Fin cfg0.N) (h0 : ¬t.val % 32 = 0) (r : Fin 512) (col : Fin 8192) :
    ((outsAt0 m c t.val t.isLt).2 : FVec Ideal S512x8192 .f32) (ix2 r col)
      = ((outsAt0 m c (t.val - 1) (Nat.lt_of_le_of_lt (Nat.sub_le _ _) t.isLt)).2 : FVec Ideal S512x8192 .f32) (ix2 r col)
        + tile (m ((c : Thread nD τ).loc main_arg0)) (m ((c : Thread nD τ).loc main_arg1))
            (512 * (t.val / 32) + r.val) col.val (t.val % 32) := by
  by_cases h1 : t.val % 32 = 31
  · rw [outsAt0_C m c t h0 h1]
    dsimp only
    refine (congrFun (scratch_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 r col)).trans ?_
    exact step_entry (m ((c : Thread nD τ).loc main_arg0)) (m ((c : Thread nD τ).loc main_arg1)) (iblk m c 0 t) (iblk m c 1 t)
      (outsAt0 m c (t.val - 1) (Nat.lt_of_le_of_lt (Nat.sub_le _ _) t.isLt)).2 (512 * (t.val / 32) + r.val) (t.val % 32) r col
      (fun kk => ztile_apply m c t r kk) (fun kk => dtile_apply m c t kk col)
  · rw [outsAt0_B m c t h0 h1]
    dsimp only
    refine (congrFun (scratch_mid c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 r col)).trans ?_
    exact step_entry (m ((c : Thread nD τ).loc main_arg0)) (m ((c : Thread nD τ).loc main_arg1)) (iblk m c 0 t) (iblk m c 1 t)
      (outsAt0 m c (t.val - 1) (Nat.lt_of_le_of_lt (Nat.sub_le _ _) t.isLt)).2 (512 * (t.val / 32) + r.val) (t.val % 32) r col
      (fun kk => ztile_apply m c t r kk) (fun kk => dtile_apply m c t kk col)

/-- THE ACCUMULATOR AFTER POINT `n`: the product's entries of row block `n / 32`, summed over the contraction tiles
    `0 … n % 32`. By induction on the point. -/
theorem acc_inv (c : Dev nD) : ∀ (n : ℕ) (h : n < cfg0.N) (r : Fin 512) (col : Fin 8192),
    ((outsAt0 m c n h).2 : FVec Ideal S512x8192 .f32) (ix2 r col)
      = partialProd (m ((c : Thread nD τ).loc main_arg0)) (m ((c : Thread nD τ).loc main_arg1))
          (512 * (n / 32) + r.val) col.val (n % 32 + 1)
  | 0, h, r, col => acc_first m c ⟨0, h⟩ rfl (show ¬(0 % 32 = 31) from by decide) r col
  | n + 1, h, r, col => by
    have hN : n + 1 < 1024 := lt_of_lt_of_eq h (show cfg0.N = 1024 from N_0)
    by_cases h0 : (n + 1) % 32 = 0
    · have h1 : ¬(n + 1) % 32 = 31 := by omega
      have e := acc_first m c ⟨n + 1, h⟩ h0 h1 r col
      rw [h0]
      exact e
    · have e := acc_next m c ⟨n + 1, h⟩ h0 r col
      have ih := acc_inv c n (Nat.lt_of_succ_lt h) r col
      have hd : (n + 1) / 32 = n / 32 := by omega
      have hm : (n + 1) % 32 = n % 32 + 1 := by omega
      refine e.trans ?_
      show ((outsAt0 m c n _).2 : FVec Ideal S512x8192 .f32) (ix2 r col)
          + tile (m ((c : Thread nD τ).loc main_arg0)) (m ((c : Thread nD τ).loc main_arg1))
              (512 * ((n + 1) / 32) + r.val) col.val ((n + 1) % 32) = _
      rw [ih, hd, hm]
      exact (partialProd_succ _ _ _ _ _).symm

/-- At the last contraction tile of a row block the output block is the epilogue of the accumulator as that point
    leaves it. -/
theorem out_block (c : Dev nD) (t : Fin cfg0.N) (h1 : t.val % 32 = 31) :
    ((outsAt0 m c t.val t.isLt).1 : FVec Ideal S512x16 .f32) = k0_pay3 (F := Ideal) (outsAt0 m c t.val t.isLt).2 := by
  have h0 : ¬t.val % 32 = 0 := by omega
  rw [outsAt0_C m c t h0 h1]
  dsimp only
  exact (out_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (congrArg (k0_pay3 (F := Ideal)) (scratch_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).symm)

/-- THE OUTPUT BLOCK at the last contraction tile of row block `t / 32`, at an entry: cluster `c`'s share of row
    `512 (t / 32) + r` of the product. -/
theorem out_entry (c : Dev nD) (t : Fin cfg0.N) (h1 : t.val % 32 = 31) (r : Fin 512) (cl : Fin 16) :
    ((outsAt0 m c t.val t.isLt).1 : FVec Ideal S512x16 .f32) (ix2 r cl)
      = shareOf (prod (m ((c : Thread nD τ).loc main_arg0)) (m ((c : Thread nD τ).loc main_arg1)) (512 * (t.val / 32) + r.val)) cl.val := by
  rw [out_block m c t h1]
  refine epilogue_apply _ _ r (fun n => ?_) cl
  rw [acc_inv m c t.val t.isLt r n, h1]
  exact partialProd_all _ _ _ _

end Cert.KernelIdeal.Accum

end
-- ==== Proof.KernelArray.lean ====
/-
  The kernel's result array.

  Only the last contraction tile of each row block writes its output block back: rows `512 i … 512 i + 511` of the
  result, for row block `i`. What it writes is the epilogue of the fully accumulated product, the shares of those
  rows; the 32 row blocks cover the 16384 rows, so the result array ends holding the shares.
-/
import proofs.«161449_j18296560681209_2_alg».proof.Proof.Accumulated
import proofs.«161449_j18296560681209_2_alg».proof.Proof.Gen.KernelIdeal.Value

set_option maxRecDepth 16384

noncomputable section

namespace Cert.KernelIdeal.RefValue

open Cert.KernelIdeal Cert.KernelIdeal.Gen Cert.ClusterShares Cert.KernelIdeal.Tiles Cert.KernelIdeal.Accum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the result array ends holding: the shares of the rows of `z · D`. -/
abbrev result (c : Dev nD) : Buf (Elt Ideal) ((c : Thread nD τ).loc main_v2) :=
  shares (m ((c : Thread nD τ).loc main_arg0)) (m ((c : Thread nD τ).loc main_arg1))

/-- What a writing point writes back is its block of the shares. -/
theorem flushed_eq (c : Dev nD) (t : Fin cfg0.N) (hf : (cfg0.win 2).flush t = true) :
    (dats m 0 c).flushed 2 t = ((cfg0.win 2).blk t).view.read (Elt Ideal) (result m c) := by
  have h1 : t.val % 32 = 31 := (flush0_2 t).mp hf
  obtain ⟨-, -, -, -, e4, e5⟩ := tile_indices t
  rw [Cert.KernelIdeal.Value.flushed2]
  funext y
  obtain ⟨r, cl, rfl⟩ : ∃ (r : Fin 512) (cl : Fin 16), y = ix2 r cl := ⟨y 0, y 1, eq_ix2 y⟩
  show ((outsAt0 m c t.val t.isLt).1 : FVec Ideal S512x16 .f32) (ix2 r cl)
    = shareOf (prod (m ((c : Thread nD τ).loc main_arg0)) (m ((c : Thread nD τ).loc main_arg1))
        (win0_2.index t (0 : Fin 2) * 512 + 1 * r.val)) (win0_2.index t (1 : Fin 2) * 16 + 1 * cl.val)
  rw [out_entry m c t h1 r cl, e4, e5]
  have ha : t.val / 32 * 512 + 1 * r.val = 512 * (t.val / 32) + r.val := by omega
  have hb : 0 * 16 + 1 * cl.val = cl.val := by omega
  rw [ha, hb]

/-- An index of the result is in point `t`'s block iff each coordinate is in the block's range. -/
theorem mem_blk (t : Fin cfg0.N) (i : S16384x16.Idx) :
    i ∈ ((cfg0.win 2).blk t).view.set ↔ ∀ a : Fin 2, win0_2.index t a * S512x16.size a ≤ (i a).val
      ∧ (i a).val < win0_2.index t a * S512x16.size a + S512x16.size a := by
  show i ∈ ((View.whole main_v2).slice (win0_2.rect t)).set ↔ _
  rw [View.set_slice_whole, Rect.mem_set_unit]
  exact Iff.rfl

/-- Row `a` of the result is written by the last contraction tile of row block `a / 512`. -/
theorem cover (i : S16384x16.Idx) :
    ∃ t : Fin cfg0.N, (cfg0.win 2).flush t = true ∧ i ∈ ((cfg0.win 2).blk t).view.set := by
  have hi0 : (i 0).val < 16384 := idx2_lt0 i
  have hi1 : (i 1).val < 16 := idx2_lt1 i
  have hN : cfg0.N = 1024 := N_0
  obtain ⟨t, ht⟩ : ∃ t : Fin cfg0.N, t.val = 32 * ((i 0).val / 512) + 31 := ⟨⟨32 * ((i 0).val / 512) + 31, by rw [hN]; omega⟩, rfl⟩
  obtain ⟨-, -, -, -, e4, e5⟩ := tile_indices t
  refine ⟨t, (flush0_2 t).mpr (by omega), ?_⟩
  rw [mem_blk]
  intro a
  match a with
  | ⟨0, _⟩ =>
    show win0_2.index t (0 : Fin 2) * 512 ≤ (i 0).val ∧ (i 0).val < win0_2.index t (0 : Fin 2) * 512 + 512
    rw [e4]; omega
  | ⟨1, _⟩ =>
    show win0_2.index t (1 : Fin 2) * 16 ≤ (i 1).val ∧ (i 1).val < win0_2.index t (1 : Fin 2) * 16 + 16
    rw [e5]; omega

/-- The result array after the run. -/
theorem final (c : Dev nD) : (dats m 0 c).arrAt 2 cfg0.N = result m c :=
  (dats m 0 c).arrAt_eq_of_cover 2 (result m c) (fun t hf => flushed_eq m c t hf) cover

/-- The kernel's run: the result array at the shares, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.RefValue

end
-- ==== Proof.ReferenceShares.lean ====
/-
  The reference computes the shares.

  Read one operation at a time: the product `z · D`; its rows seen as 16 clusters of 512; the squares summed over each
  cluster (from the initial value zero); 2560 added and the sum divided by 3072; each row's 16 smoothed energies summed
  (again from zero), kept as a column, repeated along the row, and divided into the smoothed energies. Entry `(a, c)`
  of the result is cluster `c`'s share of row `a` of the product: the specification's `shares`.
-/
import proofs.«161449_j18296560681209_2_alg».proof.Proof.Gen.ReferenceIdeal.Read
import proofs.«161449_j18296560681209_2_alg».proof.Proof.ClusterShares

noncomputable section

namespace Cert.ReferenceIdeal.RefValue

open Cert.ReferenceIdeal Cert.ReferenceIdeal.Gen Cert.ReferenceIdeal.Read Cert.ClusterShares
open Idealize.ShloMosaic Idealize.ShloMosaic.ValueIdx

variable (x0 : (⟨S16384x8192, .f32⟩ : BufTy).Contents (Elt Ideal)) (x1 : (⟨S8192x8192, .f32⟩ : BufTy).Contents (Elt Ideal))

/-- The product, at an entry. -/
theorem product_apply (i : S16384x8192.Idx) :
    val_main_v0 (F := Ideal) x0 x1 i = prod x0 x1 (i 0).val (i 1).val := by
  rw [val_main_v0_apply]
  unfold prod
  exact Finset.sum_congr rfl fun k _ => by
    rw [zAt_eq x0 (lidx_main_v0 i k) (i 0).val k.val rfl rfl, dAt_eq x1 (ridx_main_v0 i k) k.val (i 1).val rfl rfl]

/-- Column `k` of cluster `c` of row `a` is column `512 c + k` of the product's row. -/
theorem cluster_entry (i : S16384x16.Idx) (k : Fin 512) :
    val_main_v1 (F := Ideal) x0 x1 (idx_main_v3 i k) = prod x0 x1 (i 0).val (512 * (i 1).val + k.val) := by
  rw [val_main_v1_apply, product_apply]
  have h0 : (i 0).val < 16384 := idx2_lt0 i
  have h1 : (i 1).val < 16 := idx2_lt1 i
  have hk : k.val < 512 := k.isLt
  exact congrArg₂ (prod x0 x1)
    (by show (((i 0).val * 16 + (i 1).val) * 512 + k.val) / 8192 = (i 0).val; omega)
    (by show (((i 0).val * 16 + (i 1).val) * 512 + k.val) % 8192 = 512 * (i 1).val + k.val; omega)

/-- A smoothed cluster energy, at an entry. -/
theorem smoothed_apply (i : S16384x16.Idx) :
    val_main_v7 (F := Ideal) x0 x1 i = smoothedOf (prod x0 x1 (i 0).val) (i 1).val := by
  rw [val_main_v7_apply, val_main_v5_apply, val_main_v3_apply, val_main_v4_apply, val_main_v6_apply, val_main_cst_apply,
    val_main_cst_0_apply, val_main_cst_1_apply]
  unfold smoothedOf energyOf
  simp only [Ideal.hostDivf_def, Ideal.addf_def, Ideal.ofBits_def, Ideal.ofBits_zero_f32, zero_add]
  refine congrArg (fun e => Ideal.div (e + Ideal.ofBits .f32 0x45200000#32) (Ideal.ofBits .f32 0x45400000#32)) ?_
  exact Finset.sum_congr rfl fun k _ => by
    rw [val_main_v2_apply, cluster_entry]
    rfl

/-- A row's sum of smoothed energies. -/
theorem total_apply (j : S16384.Idx) :
    val_main_v8 (F := Ideal) x0 x1 j = ∑ c' : Fin 16, smoothedOf (prod x0 x1 (j 0).val) c'.val := by
  rw [val_main_v8_apply, val_main_cst_2_apply]
  simp only [Ideal.ofBits_def, Ideal.ofBits_zero_f32, zero_add]
  exact Finset.sum_congr rfl fun k _ => smoothed_apply x0 x1 (idx_main_v8 j k)

/-- THE REFERENCE'S RESULT is the shares. -/
theorem result_eq : val_main_v11 (F := Ideal) x0 x1 = shares x0 x1 := by
  funext i
  rw [val_main_v11_apply, val_main_v10_apply, val_main_v9_apply, smoothed_apply, total_apply]
  simp only [Ideal.hostDivf_def]
  rfl

end Cert.ReferenceIdeal.RefValue

end
-- ==== Proof.lean ====
/-
  The kernel and its reference compute the same array over the extended reals.

  Both take `z` (16384 × 8192) and `D` (8192 × 8192), form the product `z · D`, split each of its rows into 16
  clusters of 512 consecutive entries, take each cluster's energy (the sum of its squares), smooth it to
  `(energy + 2560) / 3072`, and divide each row's 16 smoothed energies by their sum; both also return `z`.

  The reference does this on whole arrays. The kernel works on a 32 × 32 grid: point `(i, k)` holds rows
  `512 i …` and columns `256 k …` of `z` and rows `256 k …` of `D`, and adds their product, in four column chunks
  of 2048, into a 512 × 8192 accumulator that it zeroes at `k = 0`; at `k = 31` it applies the cluster energies,
  the smoothing and the row normalisation to the accumulator and writes rows `512 i …` of the result. The change of
  float format the kernel applies to `z` and `D` first is the identity on the extended reals, and the matrix unit's
  product is the exact sum of products.

  The one law joining the two is that a sum over the 8192 contraction positions is the sum over the 32 tiles of
  each tile's 256 terms: only the commutativity and associativity of the extended reals' addition, so the inputs'
  finiteness is never used. Both results are the specification's `shares` (Proof/ClusterShares.lean): the
  reference's by reading its sixteen operations at an index (Proof/ReferenceShares.lean), the kernel's by an
  induction over the grid points on what the accumulator holds (Proof/Accumulated.lean) and the cover of the result
  by the 32 row blocks (Proof/KernelArray.lean).

  The ideal pass rewrote nothing in the kernel, so the preservation claim is trivial.
-/
import proofs.«161449_j18296560681209_2_alg».proof.Defs
import proofs.«161449_j18296560681209_2_alg».proof.Proof.Gen.Kernel
import proofs.«161449_j18296560681209_2_alg».proof.Proof.Gen.Kernel.Skeleton
import proofs.«161449_j18296560681209_2_alg».proof.Proof.Gen.Kernel.Launch
import proofs.«161449_j18296560681209_2_alg».proof.Proof.Gen.Kernel.Points
import proofs.«161449_j18296560681209_2_alg».proof.Proof.Gen.Kernel.Frame
import proofs.«161449_j18296560681209_2_alg».proof.Proof.Gen.KernelIdeal
import proofs.«161449_j18296560681209_2_alg».proof.Proof.Gen.KernelIdeal.Skeleton
import proofs.«161449_j18296560681209_2_alg».proof.Proof.Gen.KernelIdeal.Launch
import proofs.«161449_j18296560681209_2_alg».proof.Proof.Gen.KernelIdeal.Points
import proofs.«161449_j18296560681209_2_alg».proof.Proof.Gen.KernelIdeal.Frame
import proofs.«161449_j18296560681209_2_alg».proof.Proof.Gen.ReferenceIdeal
import proofs.«161449_j18296560681209_2_alg».proof.Proof.Gen.Pre_finite_inputs
import proofs.«161449_j18296560681209_2_alg».proof.Proof.Gen.KernelIdeal.Value
import proofs.«161449_j18296560681209_2_alg».proof.Proof.Gen.ReferenceIdeal.Run
import proofs.«161449_j18296560681209_2_alg».proof.Proof.Gen.ReferenceIdeal.Read
import proofs.«161449_j18296560681209_2_alg».proof.Proof.KernelArray
import proofs.«161449_j18296560681209_2_alg».proof.Proof.ReferenceShares
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From arguments that agree, both programs end with the shares of the rows of `z · D` and with `z`. -/
theorem algebraic : Cert.algebraic_KernelIdeal_ReferenceIdeal := by
  intro m ρ m' ρ' _ hagree
  refine ⟨fun c => Cert.KernelIdeal.RefValue.result m c,
    fun c => m ((c.tc : Thread Cert.KernelIdeal.nD Cert.KernelIdeal.τ).loc Cert.KernelIdeal.main_arg0), ?_, ?_⟩
  · exact (θ_run Cert.KernelIdeal.defs _ _).mono (fun _ h c => ⟨(h c).1, (h c).2.1, (h c).2.1, (h c).2.2⟩)
      (Cert.KernelIdeal.RefValue.run m ρ)
  · refine (θ_run Cert.ReferenceIdeal.defs _ _).mono (fun _ h c => ⟨(h c).1.trans ?_, (h c).2.1.trans ?_, (h c).2.2.1, (h c).2.2.2⟩)
      (Cert.ReferenceIdeal.Value.run (F := Ideal) m' ρ')
    · rw [Cert.ReferenceIdeal.Read.val_main_v11_eq, Cert.ReferenceIdeal.RefValue.result_eq, (hagree c).1, (hagree c).2]
    · exact (hagree c).1

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
